-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S10000x10000 .f32) (main_arg3 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S200x10000 : Shape := ⟨2, ![200, 10000]⟩
abbrev S200x128 : Shape := ⟨2, ![200, 128]⟩

abbrev nBuf : Space → Nat
  | .hbm => 5
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x128, .f32⟩
  | .local _ .vmem, ⟨5, _⟩ => ⟨S128x128, .f32⟩
  | .local _ .vmem, ⟨6, _⟩ => ⟨S200x128, .f32⟩
  | .local _ .vmem, ⟨7, _⟩ => ⟨S200x128, .f32⟩
  | .local _ .vmem, ⟨8, _⟩ => ⟨S10000x128, .bf16⟩
  | .local _ .vmem, ⟨9, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![50], ![false]⟩

def k0_off1 (i : grid0.Coords) : Fin 2 → Nat :=
  let arg0 : BitVec 32 := BitVec.ofNat 32 (i 0).val
  let c200_i32 : BitVec 32 := 200#32
  let v9 : BitVec 32 := Scalar.muli arg0 c200_i32
  let v10 : Index := Scalar.indexCast v9
  let c0_6 : Index := 0#32
  ![v10.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S200x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  shapeCasts_S10000x128_S10000x128 : S10000x128.ShapeCasts S10000x128
  bitsLt_bf16_f32 : FTy.bits .bf16 < FTy.bits .f32
  packedbf16_S10000x128_S10000x128_0_0 : (Rect.unit (s := S10000x128) ![0, 0] S10000x128.size inb_S10000x128_S10000x128_0_0).PackedRows (EltTy.packing .bf16)
  inb_S200x10000_S200x10000_0_0 : ∀ a, (![0, 0] : Fin 2 → Nat) a + S200x10000.size a ≤ S200x10000.size a
  h_S200x10000 : 0 < S200x10000.numel
  h_S200x128 : 0 < S200x128.numel
  inb_S200x128_S200x128_0_0 : ∀ a, (![0, 0] : Fin 2 → Nat) a + S200x128.size a ≤ S200x128.size a
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  hrank0 : 0 < grid0.rank
  k0_off1_inb : ∀ i : grid0.Coords, ∀ a, (k0_off1 i) a + S200x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x128.size a ≤ S10000x128.size a
  hwx0_4 : ∀ i : grid0.Coords, EltTy.bits .f32 = 32 ∨ (Rect.block (s := S10000x128) S200x128.size (cc0_transform_4 i) (hinb0_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S200x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S10000x10000, .f32⟩
  | .hbm, ⟨5, _⟩ => ⟨S10000x10000, .i32⟩
  | .hbm, ⟨6, _⟩ => ⟨S10000x10000, .i32⟩
  | .hbm, ⟨7, _⟩ => ⟨S_, .i32⟩
  | .hbm, ⟨8, _⟩ => ⟨S10000x10000, .i32⟩
  | .hbm, ⟨9, _⟩ => ⟨S10000x10000, .i32⟩
  | .hbm, ⟨10, _⟩ => ⟨S10000x10000, .i1⟩
  | .hbm, ⟨11, _⟩ => ⟨S10000x10000, .f32⟩
  | .hbm, ⟨12, _⟩ => ⟨S10000x10000, .f32⟩
  | .hbm, ⟨13, _⟩ => ⟨S128x128, .f32⟩
  | .hbm, ⟨14, _⟩ => ⟨S10000x128, .f32⟩
  | .hbm, ⟨15, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S_S10000x10000 : S_.BroadcastsInDim S10000x10000 (![] : Fin 0 → Fin S10000x10000.rank)
  transposes_S128x128_S128x128_1_0 : S128x128.Transposes [1, 0] S128x128
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.GcnSpec.lean ====
/-
  The graph-convolution layer as ONE function of its four arrays, index by index, over the extended reals,
  in the two arrangements the programs use, and the law that joins them.

  With node features `x` [10000, 128], adjacency `a` and mask `m` [10000, 10000] and weights `w` [128, 128]:
    the projected features      h (n, o) = Σ_c x (n, c) · w (o, c)                      (x · wᵀ)
    aggregate, then self-loop   out (n, o) = Σ_k (a (n, k) · m (n, k)) · h (k, o) + h (n, o)
    self-loop inside the sum    out (n, o) = Σ_k (a (n, k) · m (n, k) + [n = k]) · h (k, o)
  The two agree when every entry is a real number: (p + δ) · h = p · h + δ · h is distributivity, which the
  extended reals have on the reals but not at the infinities; and Σ_k [n = k] · h (k, o) = h (n, o).
-/
import Idealize.ShloMosaic.PureOps.Ideal
import Idealize.ShloMosaic.Lib.ValueIdx

noncomputable section

namespace Cert.Gcn

open Idealize.ShloMosaic Idealize.ShloMosaic.ValueIdx

/-- Node features and the layer's result: 10000 nodes, 128 channels. -/
abbrev SNodes : Shape := ⟨2, ![10000, 128]⟩
/-- The adjacency matrix and its mask. -/
abbrev SAdj : Shape := ⟨2, ![10000, 10000]⟩
/-- The weights, [out channel, in channel]. -/
abbrev SWeights : Shape := ⟨2, ![128, 128]⟩

/-! ## Sums of reals inside the extended reals -/

/-- The coercion of a finite sum of reals is the sum of the coercions. -/
theorem coe_sum {ι : Type} (s : Finset ι) (f : ι → ℝ) : ((∑ k ∈ s, f k : ℝ) : EReal) = ∑ k ∈ s, (f k : EReal) := by
  classical
  induction s using Finset.induction_on with
  | empty => simp
  | insert b s hb ih => rw [Finset.sum_insert hb, Finset.sum_insert hb, EReal.coe_add, ih]

/-- A finite sum of products of reals is a real. -/
theorem sum_mul_real {ι : Type} [Fintype ι] (f g : ι → EReal) (hf : ∀ k, ∃ r : ℝ, f k = r) (hg : ∀ k, ∃ r : ℝ, g k = r) :
    ∃ r : ℝ, ∑ k, f k * g k = r := by
  choose f' hf' using hf
  choose g' hg' using hg
  refine ⟨∑ k, f' k * g' k, ?_⟩
  rw [coe_sum]
  exact Finset.sum_congr rfl fun k _ => by rw [hf', hg', EReal.coe_mul]

/-- THE LAW. Over real entries, adding the indicator of `k = i` to each coefficient before the contraction adds
    the `i`-th term of `h` after it. -/
theorem sum_add_indicator_mul {ι : Type} [Fintype ι] [DecidableEq ι] (p h : ι → EReal) (i : ι)
    (hp : ∀ k, ∃ r : ℝ, p k = r) (hh : ∀ k, ∃ r : ℝ, h k = r) :
    ∑ k, (p k + (if i = k then (1 : EReal) else 0)) * h k = ∑ k, p k * h k + h i := by
  choose p' hp' using hp
  choose h' hh' using hh
  have ind : ∀ k, (if i = k then (1 : EReal) else 0) = (((if i = k then (1 : ℝ) else 0) : ℝ) : EReal) := by
    intro k; split_ifs <;> simp
  have lhs : ∀ k, (p k + (if i = k then (1 : EReal) else 0)) * h k = (((p' k + (if i = k then 1 else 0)) * h' k : ℝ) : EReal) := by
    intro k; rw [hp', hh', ind, ← EReal.coe_add, ← EReal.coe_mul]
  have rhs : ∀ k, p k * h k = ((p' k * h' k : ℝ) : EReal) := by
    intro k; rw [hp', hh', ← EReal.coe_mul]
  rw [Finset.sum_congr rfl fun k _ => lhs k, Finset.sum_congr rfl fun k _ => rhs k, hh', ← coe_sum, ← coe_sum, ← EReal.coe_add]
  congr 1
  simp only [add_mul, Finset.sum_add_distrib, ite_mul, one_mul, zero_mul, Finset.sum_ite_eq, Finset.mem_univ, if_true]

/-! ## The layer -/

/-- The projected features `x · wᵀ` at node `n`, channel `o`: row `n` of `x` contracted with row `o` of `w`. -/
def projAt (x : SNodes.Idx → EReal) (w : SWeights.Idx → EReal) (n : Fin 10000) (o : Fin 128) : EReal :=
  ∑ c : Fin 128, x (ix2 n c) * w (ix2 o c)

/-- The layer at (n, o) with the self-loop added after the aggregation over the masked adjacency. -/
def layerAt (x : SNodes.Idx → EReal) (a m : SAdj.Idx → EReal) (w : SWeights.Idx → EReal) (n : Fin 10000) (o : Fin 128) : EReal :=
  (∑ k : Fin 10000, (a (ix2 n k) * m (ix2 n k)) * projAt x w k o) + projAt x w n o

/-- The layer at (n, o) with the identity matrix added to the masked adjacency before the aggregation. -/
def layerLoopInsideAt (x : SNodes.Idx → EReal) (a m : SAdj.Idx → EReal) (w : SWeights.Idx → EReal) (n : Fin 10000) (o : Fin 128) : EReal :=
  ∑ k : Fin 10000, (a (ix2 n k) * m (ix2 n k) + (if n = k then (1 : EReal) else 0)) * projAt x w k o

/-- The projected features as an array. -/
def proj (x : SNodes.Idx → EReal) (w : SWeights.Idx → EReal) : SNodes.Idx → EReal := fun j => projAt x w (j 0) (j 1)

/-- The layer as an array: what both programs compute. -/
def layer (x : SNodes.Idx → EReal) (a m : SAdj.Idx → EReal) (w : SWeights.Idx → EReal) : SNodes.Idx → EReal :=
  fun j => layerAt x a m w (j 0) (j 1)

/-- Projected features of real entries are real. -/
theorem projAt_real (x : SNodes.Idx → EReal) (w : SWeights.Idx → EReal) (hx : ∀ i, ∃ r : ℝ, x i = r) (hw : ∀ i, ∃ r : ℝ, w i = r)
    (n : Fin 10000) (o : Fin 128) : ∃ r : ℝ, projAt x w n o = r :=
  sum_mul_real _ _ (fun _ => hx _) (fun _ => hw _)

/-- On real entries the two arrangements agree. -/
theorem layerLoopInsideAt_eq_layerAt (x : SNodes.Idx → EReal) (a m : SAdj.Idx → EReal) (w : SWeights.Idx → EReal)
    (hx : ∀ i, ∃ r : ℝ, x i = r) (ha : ∀ i, ∃ r : ℝ, a i = r) (hm : ∀ i, ∃ r : ℝ, m i = r) (hw : ∀ i, ∃ r : ℝ, w i = r)
    (n : Fin 10000) (o : Fin 128) : layerLoopInsideAt x a m w n o = layerAt x a m w n o := by
  unfold layerLoopInsideAt layerAt
  have hp : ∀ k : Fin 10000, ∃ r : ℝ, a (ix2 n k) * m (ix2 n k) = r := fun k => by
    obtain ⟨r, hr⟩ := ha (ix2 n k); obtain ⟨s, hs⟩ := hm (ix2 n k)
    exact ⟨r * s, by rw [hr, hs, EReal.coe_mul]⟩
  exact sum_add_indicator_mul (fun k => a (ix2 n k) * m (ix2 n k)) (fun k => projAt x w k o) n hp
    (fun k => projAt_real x w hx hw k o)

end Cert.Gcn

end
-- ==== Proof.Finite.lean ====
/-
  From the precondition to real entries. The precondition says of each of the four arrays that every entry's absolute
  value is below `+∞` (an `and` of four `jnp.all`s of `|v| < +∞`). Over the extended reals `|v| = max v (-v)`, which is
  `+∞` at both infinities, so an entry that passes is a real number.
-/
import proofs.«147589_g4569845203241_cont_8to1_c_799_21_alg».proof.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Gcn.Finite

open Idealize.ShloMosaic

/-- An extended real whose absolute value compares below the f32 pattern of `+∞` is a real. -/
theorem real_of_abs_lt_inf (v : EReal)
    (h : Ideal.cmp .olt (max v (-v)) (Ideal.ofBits .f32 0x7F800000#32) = 1#1) : ∃ r : ℝ, v = r := by
  have htop : Ideal.ofBits .f32 0x7F800000#32 = ⊤ := by simp [Ideal.ofBits, Ideal.ieee]
  rw [htop] at h
  unfold Ideal.cmp at h
  induction v using EReal.rec with
  | bot => simp at h
  | top => simp at h
  | coe r => exact ⟨r, rfl⟩

instance : Subsingleton Cert.Pre_finite_inputs.S_.Idx := ⟨fun a b => funext fun d => d.elim0⟩

/-- Under the precondition every entry of the features, the adjacency, the mask and the weights is a real. -/
theorem real_entries [Cert.Pre_finite_inputs.Facts]
    (x : FVec Ideal Cert.Pre_finite_inputs.S10000x128 .f32) (a m : FVec Ideal Cert.Pre_finite_inputs.S10000x10000 .f32)
    (w : FVec Ideal Cert.Pre_finite_inputs.S128x128 .f32)
    (h : Cert.Pre_finite_inputs.fn (F := Ideal) x a m w = fun _ => 1#1) :
    (∀ i, ∃ r : ℝ, x i = r) ∧ (∀ i, ∃ r : ℝ, a i = r) ∧ (∀ i, ∃ r : ℝ, m i = r) ∧ (∀ i, ∃ r : ℝ, w i = r) := by
  have h0 := congrFun h ValueIdx.ix0
  dsimp only [Cert.Pre_finite_inputs.fn, Cert.Pre_finite_inputs.fn_part1] at h0
  obtain ⟨h1, hw⟩ := IntOp.andi_eq_one.1 h0
  obtain ⟨h2, hm⟩ := IntOp.andi_eq_one.1 h1
  obtain ⟨hx, ha⟩ := IntOp.andi_eq_one.1 h2
  exact ⟨fun i => real_of_abs_lt_inf _ (Host.reduce_andi_all _ _ _ _ _ hx i),
    fun i => real_of_abs_lt_inf _ (Host.reduce_andi_all _ _ _ _ _ ha i),
    fun i => real_of_abs_lt_inf _ (Host.reduce_andi_all _ _ _ _ _ hm i),
    fun i => real_of_abs_lt_inf _ (Host.reduce_andi_all _ _ _ _ _ hw i)⟩

end Cert.Gcn.Finite

end
-- ==== Proof.CaseValues.lean ====
/-
  What each of the body's two cases leaves in the output block and in the two carried scratches, as values.

  At the grid's first point (case A) the body computes the projected features `h = x · wᵀ` once, stores them whole into the
  f32 scratch and, narrowed, into the bf16 scratch, and then runs the common part reading BOTH scratches back; at every
  later point (case B) it runs the common part over what the scratches already hold. The common part leaves in the output
  block the aggregation of the masked adjacency strip against the bf16 scratch, plus rows `200·t … 200·t + 199` of the
  f32 scratch. The run's found pieces are one covering store per buffer, so each is that store's payload.
-/
import proofs.«147589_g4569845203241_cont_8to1_c_799_21_alg».proof.Proof.Gen.KernelIdeal.Frame
import Idealize.ShloMosaic.Lib.Pipeline.Value
import Idealize.ShloMosaic.Lib.Tactic

set_option maxRecDepth 16384

noncomputable section

namespace Cert.KernelIdeal.CaseValues

open Cert.KernelIdeal Cert.KernelIdeal.Gen
open Idealize.ShloMosaic Idealize.ShloMosaic.TcCoe Idealize.SL.Sem Idealize.ShloMosaic.Tactic

variable {F : FTy → Type} [FloatOps F]

theorem zero_offsets : (![0, 0] : Fin 2 → Nat) = fun _ => 0 := funext fun a => by fin_cases a <;> rfl

/-- The 200 rows of a [10000, 128] array that start at the grid point's row offset `200·t`: what the body's load of the
    f32 scratch at that offset reads of contents `X`. -/
abbrev rowsAt (i : grid0.Coords) (X : Vec F S10000x128 .f32) : Vec F S200x128 .f32 :=
  View.ld X (Rect.unit (k0_off1 i) S200x128.size (Facts₀.k0_off1_inb i))

/-- CASE A, the bf16 scratch: the projected features, narrowed. -/
theorem scratch_bf16_A (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S200x128 .f32) (harg5 : arg5.IsWhole) (arg6 : Memref sig .tc .vmem S10000x128 .bf16) (harg6 : arg6.IsWhole) (arg7 : Memref sig .tc .vmem S10000x128 .f32) (harg7 : arg7.IsWhole) (hc0 : cond0_0 i) (x0 : Vec F S200x10000 .f32) (x1 : Vec F S200x10000 .f32) (x2 : Vec F S10000x128 .f32) (x3 : Vec F S128x128 .f32) :
    sout0_A_0 c i arg1 harg1 arg2 harg2 arg3 harg3 arg4 harg4 arg5 harg5 arg6 harg6 arg7 harg7 hc0 x0 x1 x2 x3 = k0_pay3 x2 x3 := by
  unfold sout0_A_0
  rw [View.read_writes_eq_canon _ _ _ (scover0_A_0 c i arg1 harg1 arg2 harg2 arg3 harg3 arg4 harg4 arg5 harg5 arg6 harg6 arg7 harg7 hc0 x0 x1 x2 x3)]
  unfold kernelRun0_A
  dsimp only
  sl_unfold_words
  rw [View.canon_unit_zero zero_offsets]
  simp only [View.readAt_eq_ld, harg3.read_unread, harg4.read_unread, View.ld_unit_zero (S := S10000x128) zero_offsets,
    View.ld_unit_zero (S := S128x128) zero_offsets]

/-- CASE A, the f32 scratch: the projected features. -/
theorem scratch_f32_A (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S200x128 .f32) (harg5 : arg5.IsWhole) (arg6 : Memref sig .tc .vmem S10000x128 .bf16) (harg6 : arg6.IsWhole) (arg7 : Memref sig .tc .vmem S10000x128 .f32) (harg7 : arg7.IsWhole) (hc0 : cond0_0 i) (x0 : Vec F S200x10000 .f32) (x1 : Vec F S200x10000 .f32) (x2 : Vec F S10000x128 .f32) (x3 : Vec F S128x128 .f32) :
    sout0_A_1 c i arg1 harg1 arg2 harg2 arg3 harg3 arg4 harg4 arg5 harg5 arg6 harg6 arg7 harg7 hc0 x0 x1 x2 x3 = k0_pay2 x2 x3 := by
  unfold sout0_A_1
  rw [View.read_writes_eq_canon _ _ _ (scover0_A_1 c i arg1 harg1 arg2 harg2 arg3 harg3 arg4 harg4 arg5 harg5 arg6 harg6 arg7 harg7 hc0 x0 x1 x2 x3)]
  unfold kernelRun0_A
  dsimp only
  sl_unfold_words
  rw [View.canon_unit_zero zero_offsets]
  simp only [View.readAt_eq_ld, harg3.read_unread, harg4.read_unread, View.ld_unit_zero (S := S10000x128) zero_offsets,
    View.ld_unit_zero (S := S128x128) zero_offsets]

/-- CASE B, the output block: the common part over the carried scratch contents `xs0`, `xs1`. -/
theorem block_B (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S200x128 .f32) (harg5 : arg5.IsWhole) (arg6 : Memref sig .tc .vmem S10000x128 .bf16) (harg6 : arg6.IsWhole) (arg7 : Memref sig .tc .vmem S10000x128 .f32) (harg7 : arg7.IsWhole) (hc0 : ¬cond0_0 i) (x0 : Vec F S200x10000 .f32) (x1 : Vec F S200x10000 .f32) (x2 : Vec F S10000x128 .f32) (x3 : Vec F S128x128 .f32) (xs0 : Vec F S10000x128 .bf16) (xs1 : Vec F S10000x128 .f32) :
    out0_B_4 c i arg1 harg1 arg2 harg2 arg3 harg3 arg4 harg4 arg5 harg5 arg6 harg6 arg7 harg7 hc0 x0 x1 x2 x3 xs0 xs1 = k0_pay4 x0 x1 xs0 (rowsAt i xs1) := by
  unfold out0_B_4
  rw [View.read_writes_eq_canon _ _ _ (cover0_B_4 c i arg1 harg1 arg2 harg2 arg3 harg3 arg4 harg4 arg5 harg5 arg6 harg6 arg7 harg7 hc0 x0 x1 x2 x3 xs0 xs1)]
  unfold kernelRun0_B
  dsimp only
  sl_unfold_words
  rw [View.canon_unit_zero zero_offsets]
  simp only [View.readAt_eq_ld, harg1.read_unread, harg2.read_unread, harg6.read_unread, harg7.read_unread,
    View.ld_unit_zero (S := S200x10000) zero_offsets, View.ld_unit_zero (S := S10000x128) zero_offsets]
  rfl

/-- CASE A, the output block: the common part over the scratch contents this same point has just stored. -/
theorem block_A (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S200x128 .f32) (harg5 : arg5.IsWhole) (arg6 : Memref sig .tc .vmem S10000x128 .bf16) (harg6 : arg6.IsWhole) (arg7 : Memref sig .tc .vmem S10000x128 .f32) (harg7 : arg7.IsWhole) (hc0 : cond0_0 i) (x0 : Vec F S200x10000 .f32) (x1 : Vec F S200x10000 .f32) (x2 : Vec F S10000x128 .f32) (x3 : Vec F S128x128 .f32) :
    out0_A_4 c i arg1 harg1 arg2 harg2 arg3 harg3 arg4 harg4 arg5 harg5 arg6 harg6 arg7 harg7 hc0 x0 x1 x2 x3 = k0_pay4 x0 x1 (k0_pay3 x2 x3) (rowsAt i (k0_pay2 x2 x3)) := by
  unfold out0_A_4
  rw [View.read_writes_eq_canon _ _ _ (cover0_A_4 c i arg1 harg1 arg2 harg2 arg3 harg3 arg4 harg4 arg5 harg5 arg6 harg6 arg7 harg7 hc0 x0 x1 x2 x3)]
  unfold kernelRun0_A
  dsimp only
  sl_unfold_words
  rw [View.canon_unit_zero zero_offsets, View.readCov_unit_zero (S := S10000x128) _ zero_offsets,
    View.readAt_writes_junk_eq_canon, View.canon_unit_zero zero_offsets]
  simp only [View.readAt_eq_ld, harg1.read_unread, harg2.read_unread, harg3.read_unread, harg4.read_unread,
    View.ld_unit_zero (S := S200x10000) zero_offsets, View.ld_unit_zero (S := S10000x128) zero_offsets,
    View.ld_unit_zero (S := S128x128) zero_offsets]
  rfl

end Cert.KernelIdeal.CaseValues

end
-- ==== Proof.Carried.lean ====
/-
  What the two carried scratches and the output block hold after EVERY grid point.

  The first point stores the projected features (f32, and narrowed to bf16) and no later point stores into either scratch,
  so by induction on the point both scratches hold, after every point, what the first point computed from its blocks of
  `x` and `w`. The output block after point `t` is therefore the common part of the body over those features: the masked
  adjacency strip of point `t` aggregated against them, plus their rows `200·t … 200·t + 199`.
-/
import proofs.«147589_g4569845203241_cont_8to1_c_799_21_alg».proof.Proof.CaseValues

set_option maxRecDepth 16384

noncomputable section

namespace Cert.KernelIdeal.Carried

open Cert.KernelIdeal Cert.KernelIdeal.Gen Cert.KernelIdeal.CaseValues
open Idealize.ShloMosaic Idealize.ShloMosaic.TcCoe Idealize.SL.Sem

variable {F : FTy → Type} [FloatOps F]
variable (m : (ℓ : Loc nD τ sig) → Buf (Elt F) ℓ)

/-- The grid's first point. -/
abbrev first : Fin cfg0.N := ⟨0, lt_of_lt_of_eq (by decide : (0 : ℕ) < 50) (show cfg0.N = 50 from N_0).symm⟩

/-- The projected features as the first point computes them from its blocks of `x` and `w`, in f32; -/
abbrev feats32 (c : Dev nD) : Vec F S10000x128 .f32 := k0_pay2 (iblk m c 2 first) (iblk m c 3 first)
/-- and narrowed to bf16. -/
abbrev feats16 (c : Dev nD) : Vec F S10000x128 .bf16 := k0_pay3 (iblk m c 2 first) (iblk m c 3 first)

/-- After every point both scratches hold the first point's projected features: stored there, carried unchanged since. -/
theorem scratch_after (c : Dev nD) : ∀ (n : ℕ) (h : n < cfg0.N),
    (outsAt0 m c n h).2.1 = feats16 m c ∧ (outsAt0 m c n h).2.2 = feats32 m c
  | 0, h => by
    have e1 : (outsAt0 m c 0 h).2.1 = sout0_A_0 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) ((hcond0_0 ⟨0, h⟩).mpr rfl) (iblk m c 0 ⟨0, h⟩) (iblk m c 1 ⟨0, h⟩) (iblk m c 2 ⟨0, h⟩) (iblk m c 3 ⟨0, h⟩) := by
      rw [outsAt0_A m c ⟨0, h⟩ rfl]
    have e2 : (outsAt0 m c 0 h).2.2 = sout0_A_1 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) ((hcond0_0 ⟨0, h⟩).mpr rfl) (iblk m c 0 ⟨0, h⟩) (iblk m c 1 ⟨0, h⟩) (iblk m c 2 ⟨0, h⟩) (iblk m c 3 ⟨0, h⟩) := by
      rw [outsAt0_A m c ⟨0, h⟩ rfl]
    have v1 : sout0_A_0 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) ((hcond0_0 ⟨0, h⟩).mpr rfl) (iblk m c 0 ⟨0, h⟩) (iblk m c 1 ⟨0, h⟩) (iblk m c 2 ⟨0, h⟩) (iblk m c 3 ⟨0, h⟩) = k0_pay3 (iblk m c 2 ⟨0, h⟩) (iblk m c 3 ⟨0, h⟩) :=
      scratch_bf16_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) ((hcond0_0 ⟨0, h⟩).mpr rfl) (iblk m c 0 ⟨0, h⟩) (iblk m c 1 ⟨0, h⟩) (iblk m c 2 ⟨0, h⟩) (iblk m c 3 ⟨0, h⟩)
    have v2 : sout0_A_1 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) ((hcond0_0 ⟨0, h⟩).mpr rfl) (iblk m c 0 ⟨0, h⟩) (iblk m c 1 ⟨0, h⟩) (iblk m c 2 ⟨0, h⟩) (iblk m c 3 ⟨0, h⟩) = k0_pay2 (iblk m c 2 ⟨0, h⟩) (iblk m c 3 ⟨0, h⟩) :=
      scratch_f32_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) ((hcond0_0 ⟨0, h⟩).mpr rfl) (iblk m c 0 ⟨0, h⟩) (iblk m c 1 ⟨0, h⟩) (iblk m c 2 ⟨0, h⟩) (iblk m c 3 ⟨0, h⟩)
    exact ⟨e1.trans v1, e2.trans v2⟩
  | n + 1, h => by
    have hN : cfg0.N = 50 := N_0
    have hB : ¬(⟨n + 1, h⟩ : Fin cfg0.N).val % 50 = 0 := by dsimp only; omega
    have ih := scratch_after c n (Nat.lt_of_succ_lt h)
    have e1 : (outsAt0 m c (n + 1) h).2.1 = (outsAt0 m c n (Nat.lt_of_succ_lt h)).2.1 := by
      rw [outsAt0_B m c ⟨n + 1, h⟩ hB]; rfl
    have e2 : (outsAt0 m c (n + 1) h).2.2 = (outsAt0 m c n (Nat.lt_of_succ_lt h)).2.2 := by
      rw [outsAt0_B m c ⟨n + 1, h⟩ hB]; rfl
    exact ⟨e1.trans ih.1, e2.trans ih.2⟩

/-- The output block after point `t`: the body's common part over the point's blocks of the adjacency and the mask and the
    first point's projected features. -/
theorem block_after (c : Dev nD) (t : Fin cfg0.N) :
    (outsAt0 m c t.val t.isLt).1
      = k0_pay4 (iblk m c 0 t) (iblk m c 1 t) (feats16 m c) (rowsAt (grid0.coords t) (feats32 m c)) := by
  have hN : cfg0.N = 50 := N_0
  by_cases h0 : t.val % 50 = 0
  · have ht : t = first := Fin.ext (by show t.val = 0; have := t.isLt; omega)
    subst ht
    have e : (outsAt0 m c first.val first.isLt).1 = out0_A_4 c (grid0.coords first) (ms0_0 first) (hs0_0 first) (ms0_1 first) (hs0_1 first) (ms0_2 first) (hs0_2 first) (ms0_3 first) (hs0_3 first) (ms0_4 first) (hs0_4 first) scM0_0 (Memref.isWhole_whole _) scM0_1 (Memref.isWhole_whole _) ((hcond0_0 first).mpr h0) (iblk m c 0 first) (iblk m c 1 first) (iblk m c 2 first) (iblk m c 3 first) := by
      rw [outsAt0_A m c first h0]
    have v : out0_A_4 c (grid0.coords first) (ms0_0 first) (hs0_0 first) (ms0_1 first) (hs0_1 first) (ms0_2 first) (hs0_2 first) (ms0_3 first) (hs0_3 first) (ms0_4 first) (hs0_4 first) scM0_0 (Memref.isWhole_whole _) scM0_1 (Memref.isWhole_whole _) ((hcond0_0 first).mpr h0) (iblk m c 0 first) (iblk m c 1 first) (iblk m c 2 first) (iblk m c 3 first)
        = k0_pay4 (iblk m c 0 first) (iblk m c 1 first) (k0_pay3 (iblk m c 2 first) (iblk m c 3 first))
            (rowsAt (grid0.coords first) (k0_pay2 (iblk m c 2 first) (iblk m c 3 first))) :=
      block_A c (grid0.coords first) (ms0_0 first) (hs0_0 first) (ms0_1 first) (hs0_1 first) (ms0_2 first) (hs0_2 first) (ms0_3 first) (hs0_3 first) (ms0_4 first) (hs0_4 first) scM0_0 (Memref.isWhole_whole _) scM0_1 (Memref.isWhole_whole _) ((hcond0_0 first).mpr h0) (iblk m c 0 first) (iblk m c 1 first) (iblk m c 2 first) (iblk m c 3 first)
    exact e.trans v
  · have hs := scratch_after m c (t.val - 1) (Nat.lt_of_le_of_lt (Nat.sub_le _ _) t.isLt)
    have e : (outsAt0 m c t.val t.isLt).1 = out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (iblk m c 3 t)
        (outsAt0 m c (t.val - 1) (Nat.lt_of_le_of_lt (Nat.sub_le _ _) t.isLt)).2.1
        (outsAt0 m c (t.val - 1) (Nat.lt_of_le_of_lt (Nat.sub_le _ _) t.isLt)).2.2 := by
      rw [outsAt0_B m c t h0]
    have v := block_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (iblk m c 3 t)
        (outsAt0 m c (t.val - 1) (Nat.lt_of_le_of_lt (Nat.sub_le _ _) t.isLt)).2.1
        (outsAt0 m c (t.val - 1) (Nat.lt_of_le_of_lt (Nat.sub_le _ _) t.isLt)).2.2
    rw [hs.1, hs.2] at v
    rw [hs.1, hs.2] at e
    exact e.trans v

end Cert.KernelIdeal.Carried

end
-- ==== Proof.PayloadAt.lean ====
/-
  The body's pure payloads read at an index, over the extended reals.

  The projection payload is one matrix product into a zero accumulator against the transposed weights, so its entry
  (n, o) is `Σ_c x (n, c) · w (o, c)`; the payloads stored into the two scratches are that product under identity shape
  casts and, for the bf16 scratch, a change of float format, which is the identity on extended reals. The output payload
  is the product of the elementwise masked adjacency strip with the bf16 scratch, into a zero accumulator, plus the rows
  loaded from the f32 scratch: entry (r, o) is `Σ_k (a (r, k) · m (r, k)) · h (k, o) + hrow (r, o)`.
-/
import proofs.«147589_g4569845203241_cont_8to1_c_799_21_alg».proof.Proof.Gen.KernelIdeal.Skeleton
import proofs.«147589_g4569845203241_cont_8to1_c_799_21_alg».proof.Proof.GcnSpec
import Idealize.ShloMosaic.PureOps.Ideal.Laws
import Idealize.ShloMosaic.Lib.ValueIdx
import Idealize.ShloMosaic.Lib.Pipeline.Value

noncomputable section

namespace Cert.KernelIdeal.PayloadAt

open Cert.KernelIdeal Cert.KernelIdeal.Gen
open Idealize.ShloMosaic Idealize.ShloMosaic.ValueIdx

/-! ## The two contractions' index maps, coordinate by coordinate -/

theorem lhs_proj_0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_proj_1 (i : S10000x128.Idx) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
theorem rhs_proj_0 (i : S10000x128.Idx) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
theorem rhs_proj_1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

theorem lhs_agg_0 (i : S200x128.Idx) (q : dot_S200x10000_S10000x128_S200x128_1_0_0_1_n_n.contr.Idx) : (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
theorem lhs_agg_1 (i : S200x128.Idx) (q : dot_S200x10000_S10000x128_S200x128_1_0_0_1_n_n.contr.Idx) : (dot_S200x10000_S10000x128_S200x128_1_0_0_1_n_n.lhsIdx i q 1).val = (q ⟨0, by decide⟩).val :=
  dot_S200x10000_S10000x128_S200x128_1_0_0_1_n_n.lhsIdx_val_of_single rfl i q
theorem rhs_agg_0 (i : S200x128.Idx) (q : dot_S200x10000_S10000x128_S200x128_1_0_0_1_n_n.contr.Idx) : (dot_S200x10000_S10000x128_S200x128_1_0_0_1_n_n.rhsIdx i q 0).val = (q ⟨0, by decide⟩).val :=
  dot_S200x10000_S10000x128_S200x128_1_0_0_1_n_n.rhsIdx_val_of_single rfl i q
theorem rhs_agg_1 (i : S200x128.Idx) (q : dot_S200x10000_S10000x128_S200x128_1_0_0_1_n_n.contr.Idx) : (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

/-! ## The projection -/

/-- The projection payload at (n, o): row `n` of `x` against row `o` of `w`. -/
theorem proj_at (x : Vec Ideal S10000x128 .f32) (w : Vec Ideal S128x128 .f32) (n : Fin 10000) (o : Fin 128) :
    k0_pay1 (F := Ideal) x w (ix2 n o) = Cert.Gcn.projAt x w n o := by
  unfold k0_pay1
  refine (Ideal.matmul_constant_zero_apply dot_S10000x128_S128x128_S10000x128_1_0_0_1_n_n none x
    (transpose S128x128 [1, 0] w Facts₀.transposes_S128x128_p1_0_S128x128) (ix2 n o)).trans ?_
  rw [← Equiv.sum_comp (contrEquiv1 dot_S10000x128_S128x128_S10000x128_1_0_0_1_n_n 128 rfl rfl).symm]
  unfold Cert.Gcn.projAt
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 n o) ((contrEquiv1 dot_S10000x128_S128x128_S10000x128_1_0_0_1_n_n 128 rfl rfl).symm k) = ix2 n k := funext fun a => Fin.ext (by
    match a with
    | ⟨0, _⟩ => exact lhs_proj_0 _ _
    | ⟨1, _⟩ => exact (lhs_proj_1 _ _).trans hk)
  have er : dot_S10000x128_S128x128_S10000x128_1_0_0_1_n_n.rhsIdx (ix2 n o) ((contrEquiv1 dot_S10000x128_S128x128_S10000x128_1_0_0_1_n_n 128 rfl rfl).symm k) = ix2 k o := funext fun a => Fin.ext (by
    match a with
    | ⟨0, _⟩ => exact (rhs_proj_0 _ _).trans hk
    | ⟨1, _⟩ => exact rhs_proj_1 _ _)
  rw [el, er]
  refine congrArg (x (ix2 n k) * ·) ?_
  exact transpose_apply [1, 0] w Facts₀.transposes_S128x128_p1_0_S128x128 (ix2 k o) (ix2 o k) (fun b => match b with
    | ⟨0, _⟩ => rfl
    | ⟨1, _⟩ => rfl)

/-- What is stored into the f32 scratch is the projection (an identity shape cast). -/
theorem scratch32_at (x : Vec Ideal S10000x128 .f32) (w : Vec Ideal S128x128 .f32) (n : Fin 10000) (o : Fin 128) :
    k0_pay2 (F := Ideal) x w (ix2 n o) = Cert.Gcn.projAt x w n o := by
  unfold k0_pay2
  rw [shapeCast_self]
  exact proj_at x w n o

/-- What is stored into the bf16 scratch is the projection too: the change of format is the identity. -/
theorem scratch16_at (x : Vec Ideal S10000x128 .f32) (w : Vec Ideal S128x128 .f32) (n : Fin 10000) (o : Fin 128) :
    k0_pay3 (F := Ideal) x w (ix2 n o) = Cert.Gcn.projAt x w n o := by
  unfold k0_pay3
  rw [shapeCast_self]
  exact proj_at x w n o

/-! ## The aggregation -/

/-- The output payload at (r, o): the masked adjacency row `r` of the strip against column `o` of the bf16 scratch, plus
    the entry loaded from the f32 scratch. -/
theorem agg_at (a mk : Vec Ideal S200x10000 .f32) (h16 : Vec Ideal S10000x128 .bf16) (hrow : Vec Ideal S200x128 .f32)
    (r : Fin 200) (o : Fin 128) :
    k0_pay4 (F := Ideal) a mk h16 hrow (ix2 r o)
      = (∑ k : Fin 10000, (a (ix2 r k) * mk (ix2 r k)) * h16 (ix2 k o)) + hrow (ix2 r o) := by
  unfold k0_pay4
  refine congrArg (· + hrow (ix2 r o)) ?_
  refine (Ideal.matmul_constant_zero_apply dot_S200x10000_S10000x128_S200x128_1_0_0_1_n_n none
    (truncf .bf16 (mulf a mk) Facts₀.bitsLt_bf16_f32) h16 (ix2 r o)).trans ?_
  rw [← Equiv.sum_comp (contrEquiv1 dot_S200x10000_S10000x128_S200x128_1_0_0_1_n_n 10000 rfl rfl).symm]
  refine Finset.sum_congr rfl fun k _ => ?_
  have hk := contrEquiv1_symm_val dot_S200x10000_S10000x128_S200x128_1_0_0_1_n_n 10000 rfl rfl k
  have el : dot_S200x10000_S10000x128_S200x128_1_0_0_1_n_n.lhsIdx (ix2 r o) ((contrEquiv1 dot_S200x10000_S10000x128_S200x128_1_0_0_1_n_n 10000 rfl rfl).symm k) = ix2 r k := funext fun a => Fin.ext (by
    match a with
    | ⟨0, _⟩ => exact lhs_agg_0 _ _
    | ⟨1, _⟩ => exact (lhs_agg_1 _ _).trans hk)
  have er : dot_S200x10000_S10000x128_S200x128_1_0_0_1_n_n.rhsIdx (ix2 r o) ((contrEquiv1 dot_S200x10000_S10000x128_S200x128_1_0_0_1_n_n 10000 rfl rfl).symm k) = ix2 k o := funext fun a => Fin.ext (by
    match a with
    | ⟨0, _⟩ => exact (rhs_agg_0 _ _).trans hk
    | ⟨1, _⟩ => exact rhs_agg_1 _ _)
  rw [el, er]
  rfl

end Cert.KernelIdeal.PayloadAt

end
-- ==== Proof.LayerValue.lean ====
/-
  The kernel's result array is the layer, index by index.

  Point `t` of the 50-point grid holds rows `200·t … 200·t + 199` of the adjacency and of the mask (all 10000 columns), the
  whole of `x` and of `w`, and writes back rows `200·t … 200·t + 199` of the result. With the carried scratches at the
  projected features `h = x · wᵀ` (of the WHOLE arrays: the blocks of `x` and `w` are the arrays), the block a point writes
  back is, at local (r, o), `Σ_k (a (200t + r, k) · m (200t + r, k)) · h (k, o) + h (200t + r, o)`: the layer at row
  `200t + r`. The 50 blocks tile the 10000 rows (row `n` lies in block `n / 200`), so the array after the run is the layer.
-/
import proofs.«147589_g4569845203241_cont_8to1_c_799_21_alg».proof.Proof.Carried
import proofs.«147589_g4569845203241_cont_8to1_c_799_21_alg».proof.Proof.PayloadAt
import proofs.«147589_g4569845203241_cont_8to1_c_799_21_alg».proof.Proof.Gen.KernelIdeal.Value

set_option maxRecDepth 16384

noncomputable section

namespace Cert.KernelIdeal.LayerValue

open Cert.KernelIdeal Cert.KernelIdeal.Gen Cert.KernelIdeal.CaseValues Cert.KernelIdeal.Carried Cert.KernelIdeal.PayloadAt
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## One block, over plain arrays -/

/-- A strip of 200 rows starting at row `base`: if `A`, `MK` are those rows of `a`, `mm`, and `HR` those rows of the
    projected features, the output payload over the projected features is the layer at row `base + r`. -/
theorem strip_value (A MK : Vec Ideal S200x10000 .f32) (X : Vec Ideal S10000x128 .f32) (W : Vec Ideal S128x128 .f32)
    (a mm : Cert.Gcn.SAdj.Idx → EReal) (HR : Vec Ideal S200x128 .f32) (base : ℕ) (hb : ∀ r : Fin 200, base + r.val < 10000)
    (hA : ∀ (r : Fin 200) (k : Fin 10000), A (ix2 r k) = a (ix2 ⟨base + r.val, hb r⟩ k))
    (hM : ∀ (r : Fin 200) (k : Fin 10000), MK (ix2 r k) = mm (ix2 ⟨base + r.val, hb r⟩ k))
    (hH : ∀ (r : Fin 200) (o : Fin 128), HR (ix2 r o) = k0_pay2 (F := Ideal) X W (ix2 ⟨base + r.val, hb r⟩ o))
    (r : Fin 200) (o : Fin 128) :
    k0_pay4 (F := Ideal) A MK (k0_pay3 X W) HR (ix2 r o) = Cert.Gcn.layerAt X a mm W ⟨base + r.val, hb r⟩ o := by
  rw [agg_at, hH, scratch32_at]
  unfold Cert.Gcn.layerAt
  refine congrArg (· + Cert.Gcn.projAt X W ⟨base + r.val, hb r⟩ o) ?_
  refine Finset.sum_congr rfl fun k _ => ?_
  rw [hA, hM, scratch16_at]

/-! ## The printed index maps, decided once over the grid -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ k0_off1 (grid0.coords t) (0 : Fin 2) = 200 * t.val ∧ k0_off1 (grid0.coords t) (1 : Fin 2) = 0 :=
  (by decide +kernel : ∀ t : Fin grid0.N, _)

/-! ## The blocks are the arrays read where the point says -/

/-- The block of `x` at any point is `x`. -/
theorem feat_blk (c : Dev nD) (t : Fin cfg0.N) : (iblk m c 2 t : Vec Ideal S10000x128 .f32) = V m c main_arg0 := by
  obtain ⟨-, -, -, -, e0, e1, -⟩ := idx_facts t
  funext y
  show V m c main_arg0 (((cfg0.win 2).blk t).view.emb y) = V m c main_arg0 y
  refine congrArg (V m c main_arg0) (funext fun a => Fin.ext ?_)
  match a with
  | ⟨0, _⟩ => show win0_2.index t (0 : Fin 2) * 10000 + 1 * (y 0).val = (y 0).val; rw [e0]; omega
  | ⟨1, _⟩ => show win0_2.index t (1 : Fin 2) * 128 + 1 * (y 1).val = (y 1).val; rw [e1]; omega

/-- The block of `w` at any point is `w`. -/
theorem weight_blk (c : Dev nD) (t : Fin cfg0.N) : (iblk m c 3 t : Vec Ideal S128x128 .f32) = V m c main_arg3 := by
  obtain ⟨-, -, -, -, -, -, e0, e1, -⟩ := idx_facts t
  funext y
  show V m c main_arg3 (((cfg0.win 3).blk t).view.emb y) = V m c main_arg3 y
  refine congrArg (V m c main_arg3) (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The adjacency strip at point `t`, local (r, k), is the adjacency at (200·t + r, k). -/
theorem adj_blk (c : Dev nD) (t : Fin cfg0.N) (r : Fin 200) (k : Fin 10000) (hr : 200 * t.val + r.val < 10000) :
    (iblk m c 0 t : Vec Ideal S200x10000 .f32) (ix2 r k) = V m c main_arg1 (ix2 ⟨200 * t.val + r.val, hr⟩ k) := by
  obtain ⟨e0, e1, -⟩ := idx_facts t
  show V m c main_arg1 (((cfg0.win 0).blk t).view.emb (ix2 r k)) = V m c main_arg1 _
  refine congrArg (V m c main_arg1) (funext fun a => Fin.ext ?_)
  match a with
  | ⟨0, _⟩ => show win0_0.index t (0 : Fin 2) * 200 + 1 * r.val = 200 * t.val + r.val; rw [e0]; omega
  | ⟨1, _⟩ => show win0_0.index t (1 : Fin 2) * 10000 + 1 * k.val = k.val; rw [e1]; omega

/-- The mask strip likewise. -/
theorem mask_blk (c : Dev nD) (t : Fin cfg0.N) (r : Fin 200) (k : Fin 10000) (hr : 200 * t.val + r.val < 10000) :
    (iblk m c 1 t : Vec Ideal S200x10000 .f32) (ix2 r k) = V m c main_arg2 (ix2 ⟨200 * t.val + r.val, hr⟩ k) := by
  obtain ⟨-, -, e0, e1, -⟩ := idx_facts t
  show V m c main_arg2 (((cfg0.win 1).blk t).view.emb (ix2 r k)) = V m c main_arg2 _
  refine congrArg (V m c main_arg2) (funext fun a => Fin.ext ?_)
  match a with
  | ⟨0, _⟩ => show win0_1.index t (0 : Fin 2) * 200 + 1 * r.val = 200 * t.val + r.val; rw [e0]; omega
  | ⟨1, _⟩ => show win0_1.index t (1 : Fin 2) * 10000 + 1 * k.val = k.val; rw [e1]; omega

/-- The 200 rows the body loads from the f32 scratch at point `t` are rows `200·t + r` of its contents. -/
theorem rows_at (t : Fin cfg0.N) (X : Vec Ideal S10000x128 .f32) (r : Fin 200) (o : Fin 128) (hr : 200 * t.val + r.val < 10000) :
    rowsAt (grid0.coords t) X (ix2 r o) = X (ix2 ⟨200 * t.val + r.val, hr⟩ o) := by
  obtain ⟨-, -, -, -, -, -, -, -, -, -, e0, e1⟩ := idx_facts t
  show X ((Rect.unit (s := S10000x128) (k0_off1 (grid0.coords t)) S200x128.size (Facts₀.k0_off1_inb (grid0.coords t))).idx (ix2 r o)) = _
  refine congrArg X (funext fun a => Fin.ext ?_)
  match a with
  | ⟨0, _⟩ => show k0_off1 (grid0.coords t) (0 : Fin 2) + 1 * r.val = 200 * t.val + r.val; rw [e0]; omega
  | ⟨1, _⟩ => show k0_off1 (grid0.coords t) (1 : Fin 2) + 1 * o.val = o.val; rw [e1]; omega

/-! ## What a point writes back, the cover, the array after the run -/

/-- The layer of the argument arrays, as contents of the result array. -/
abbrev result (c : Dev nD) : Buf (Elt Ideal) ((c : Thread nD τ).loc main_v0) :=
  Cert.Gcn.layer (V m c main_arg0) (V m c main_arg1) (V m c main_arg2) (V m c main_arg3)

theorem rows_lt (t : Fin cfg0.N) (r : Fin 200) : 200 * t.val + r.val < 10000 := by
  have h1 := lt_of_lt_of_eq t.isLt (show cfg0.N = 50 from N_0); have h2 := r.isLt; omega

/-- WHAT POINT `t` WRITES BACK is block `t` of the layer. -/
theorem flushed_eq (c : Dev nD) (t : Fin cfg0.N) :
    (dats m 0 c).flushed 4 t = ((cfg0.win 4).blk t).view.read (Elt Ideal) (result m c) := by
  rw [Cert.KernelIdeal.Value.flushed4, block_after]
  unfold feats16 feats32
  rw [feat_blk m c first, weight_blk m c first]
  obtain ⟨-, -, -, -, -, -, -, -, e0, e1, -⟩ := idx_facts t
  funext j
  obtain ⟨r, o, rfl⟩ : ∃ (r : Fin 200) (o : Fin 128), j = ix2 r o := ⟨j 0, j 1, eq_ix2 j⟩
  show k0_pay4 (F := Ideal) (iblk m c 0 t) (iblk m c 1 t) (k0_pay3 (V m c main_arg0) (V m c main_arg3))
      (rowsAt (grid0.coords t) (k0_pay2 (V m c main_arg0) (V m c main_arg3))) (ix2 r o)
    = Cert.Gcn.layerAt (V m c main_arg0) (V m c main_arg1) (V m c main_arg2) (V m c main_arg3)
        ((((cfg0.win 4).blk t).view.emb (ix2 r o)) 0) ((((cfg0.win 4).blk t).view.emb (ix2 r o)) 1)
  refine (strip_value (iblk m c 0 t) (iblk m c 1 t) (V m c main_arg0) (V m c main_arg3) (V m c main_arg1) (V m c main_arg2)
    (rowsAt (grid0.coords t) (k0_pay2 (V m c main_arg0) (V m c main_arg3))) (200 * t.val) (rows_lt t)
    (fun r k => adj_blk m c t r k (rows_lt t r)) (fun r k => mask_blk m c t r k (rows_lt t r))
    (fun r o => rows_at t _ r o (rows_lt t r)) r o).trans ?_
  have hn : (⟨200 * t.val + r.val, rows_lt t r⟩ : Fin 10000) = (((cfg0.win 4).blk t).view.emb (ix2 r o)) 0 := Fin.ext (by
    show 200 * t.val + r.val = win0_4.index t (0 : Fin 2) * 200 + 1 * r.val; rw [e0]; omega)
  have ho : o = (((cfg0.win 4).blk t).view.emb (ix2 r o)) 1 := Fin.ext (by
    show o.val = win0_4.index t (1 : Fin 2) * 128 + 1 * o.val; rw [e1]; omega)
  rw [← hn, ← ho]

/-- An index of the result array is in point `t`'s block iff each coordinate is in the block's range on its axis. -/
theorem mem_blk (t : Fin cfg0.N) (i : S10000x128.Idx) :
    i ∈ ((cfg0.win 4).blk t).view.set ↔ ∀ a : Fin 2, win0_4.index t a * S200x128.size a ≤ (i a).val ∧ (i a).val < win0_4.index t a * S200x128.size a + S200x128.size a := by
  show i ∈ ((View.whole main_v0).slice (win0_4.rect t)).set ↔ _
  rw [View.set_slice_whole, Rect.mem_set_unit]
  exact Iff.rfl

/-- Every row is in some point's block: row `n` in block `n / 200`. -/
theorem cover (i : S10000x128.Idx) : ∃ t : Fin cfg0.N, (cfg0.win 4).flush t = true ∧ i ∈ ((cfg0.win 4).blk t).view.set := by
  have hi0 : (i 0).val < 10000 := (i 0).isLt
  have hi1 : (i 1).val < 128 := (i 1).isLt
  have hN : cfg0.N = 50 := N_0
  have ht : (i 0).val / 200 < cfg0.N := by rw [hN]; omega
  obtain ⟨-, -, -, -, -, -, -, -, e0, e1, -⟩ := idx_facts ⟨(i 0).val / 200, ht⟩
  refine ⟨⟨(i 0).val / 200, ht⟩, flush0_4 _, ?_⟩
  rw [mem_blk]
  intro a
  match a with
  | ⟨0, _⟩ =>
    show win0_4.index ⟨(i 0).val / 200, ht⟩ (0 : Fin 2) * 200 ≤ (i 0).val ∧ (i 0).val < win0_4.index ⟨(i 0).val / 200, ht⟩ (0 : Fin 2) * 200 + 200
    rw [e0]; show (i 0).val / 200 * 200 ≤ (i 0).val ∧ (i 0).val < (i 0).val / 200 * 200 + 200; omega
  | ⟨1, _⟩ =>
    show win0_4.index ⟨(i 0).val / 200, ht⟩ (1 : Fin 2) * 128 ≤ (i 1).val ∧ (i 1).val < win0_4.index ⟨(i 0).val / 200, ht⟩ (1 : Fin 2) * 128 + 128
    rw [e1]; omega

/-- THE ARRAY after the run is the layer of the argument arrays. -/
theorem final (c : Dev nD) : (dats m 0 c).arrAt 4 cfg0.N = result m c :=
  (dats m 0 c).arrAt_eq_of_cover 4 (result m c) (fun t _ => flushed_eq m c t) cover

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.LayerValue

end
-- ==== Proof.ReferenceValue.lean ====
/-
  The reference's result, read index by index: the layer with the identity matrix added to the masked adjacency BEFORE
  the aggregation.

  The reference builds the identity as the conversion to float of the bit `row + 0 = column` over two iotas: at (n, k)
  that is `1` when `n = k` and `0` otherwise (both below 2³², so equal 32-bit words are equal numbers). Its two matrix
  products contract the same axes as the kernel's: the projection `x · wᵀ` through an explicit transpose of `w`, and the
  aggregation over all 10000 nodes.
-/
import proofs.«147589_g4569845203241_cont_8to1_c_799_21_alg».proof.Proof.Gen.ReferenceIdeal.Read
import proofs.«147589_g4569845203241_cont_8to1_c_799_21_alg».proof.Proof.GcnSpec

noncomputable section

namespace Cert.ReferenceIdeal.RefValue

open Cert.ReferenceIdeal Cert.ReferenceIdeal.Read
open Idealize.ShloMosaic Idealize.ShloMosaic.ValueIdx

/-- The identity matrix's entry (n, k), as the reference spells it, is the indicator of `n = k`. -/
theorem eye_at (n k : Fin 10000) :
    (FloatOps.uitofp (F := Ideal) .f32 (IntOp.cmpi .eq (IntOp.addi (BitVec.ofNat 32 n.val) 0#32) (BitVec.ofNat 32 k.val)) : EReal)
      = if n = k then (1 : EReal) else 0 := by
  show (((IntOp.cmpi .eq (IntOp.addi (BitVec.ofNat 32 n.val) 0#32) (BitVec.ofNat 32 k.val)).toNat : ℝ) : EReal) = _
  have hadd : IntOp.addi (BitVec.ofNat 32 n.val) 0#32 = BitVec.ofNat 32 n.val := by
    show BitVec.ofNat 32 n.val + 0#32 = _; exact BitVec.add_zero _
  rw [hadd]
  by_cases h : n = k
  · subst h
    rw [if_pos rfl, IntOp.cmpi_eq.2 rfl]
    simp
  · rw [if_neg h]
    have hne : ¬ IntOp.cmpi .eq (BitVec.ofNat 32 n.val) (BitVec.ofNat 32 k.val) = 1#1 := fun e => by
      have e' := congrArg BitVec.toNat (IntOp.cmpi_eq.1 e)
      rw [BitVec.toNat_ofNat, BitVec.toNat_ofNat, Nat.mod_eq_of_lt (by have := n.isLt; omega),
        Nat.mod_eq_of_lt (by have := k.isLt; omega)] at e'
      exact h (Fin.ext e')
    rw [eq_zero_of_ne_one hne]
    simp

/-- The reference's projection stage at (k, o) is `Σ_c x (k, c) · w (o, c)`. -/
theorem proj_at (x0 : (⟨S10000x128, .f32⟩ : BufTy).Contents (Elt Ideal)) (x3 : (⟨S128x128, .f32⟩ : BufTy).Contents (Elt Ideal))
    (k : Fin 10000) (o : Fin 128) : val_main_v9 (F := Ideal) x0 x3 (ix2 k o) = Cert.Gcn.projAt x0 x3 k o := by
  rw [val_main_v9_apply]
  unfold Cert.Gcn.projAt
  refine Finset.sum_congr rfl fun c _ => ?_
  have el : lidx_main_v9 (ix2 k o) c = ix2 k c := funext fun a => Fin.ext (by match a with | ⟨0, _⟩ => rfl | ⟨1, _⟩ => rfl)
  have er : ridx_main_v9 (ix2 k o) c = ix2 c o := funext fun a => Fin.ext (by match a with | ⟨0, _⟩ => rfl | ⟨1, _⟩ => rfl)
  have et : idx_main_v8 (ix2 c o) = ix2 o c := funext fun a => Fin.ext (by match a with | ⟨0, _⟩ => rfl | ⟨1, _⟩ => rfl)
  rw [el, er, val_main_v8_apply, et]

/-- The reference's result stage at (n, o) is the layer with the self-loop inside the aggregation. -/
theorem result_at (x0 : (⟨S10000x128, .f32⟩ : BufTy).Contents (Elt Ideal)) (x1 x2 : (⟨S10000x10000, .f32⟩ : BufTy).Contents (Elt Ideal))
    (x3 : (⟨S128x128, .f32⟩ : BufTy).Contents (Elt Ideal)) (n : Fin 10000) (o : Fin 128) :
    val_main_v10 (F := Ideal) x0 x1 x2 x3 (ix2 n o) = Cert.Gcn.layerLoopInsideAt x0 x1 x2 x3 n o := by
  rw [val_main_v10_apply]
  unfold Cert.Gcn.layerLoopInsideAt
  refine Finset.sum_congr rfl fun k _ => ?_
  have el : lidx_main_v10 (ix2 n o) k = ix2 n k := funext fun a => Fin.ext (by match a with | ⟨0, _⟩ => rfl | ⟨1, _⟩ => rfl)
  have er : ridx_main_v10 (ix2 n o) k = ix2 k o := funext fun a => Fin.ext (by match a with | ⟨0, _⟩ => rfl | ⟨1, _⟩ => rfl)
  rw [el, er, proj_at, val_main_v7_apply, val_main_v0_apply, val_main_v6_apply, val_main_v5_apply, val_main_v4_apply,
    val_main_v1_apply, val_main_v3_apply, val_main_c_apply, val_main_v2_apply]
  refine congrArg (· * Cert.Gcn.projAt x0 x3 k o) ?_
  refine congrArg (x1 (ix2 n k) * x2 (ix2 n k) + ·) ?_
  exact eye_at n k

/-- The reference's result, as an array, is the layer with the self-loop inside the aggregation at every index. -/
theorem result_eq (x0 : (⟨S10000x128, .f32⟩ : BufTy).Contents (Elt Ideal)) (x1 x2 : (⟨S10000x10000, .f32⟩ : BufTy).Contents (Elt Ideal))
    (x3 : (⟨S128x128, .f32⟩ : BufTy).Contents (Elt Ideal)) :
    val_main_v10 (F := Ideal) x0 x1 x2 x3 = fun j => Cert.Gcn.layerLoopInsideAt x0 x1 x2 x3 (j 0) (j 1) := by
  funext j
  obtain ⟨n, o, rfl⟩ : ∃ (n : Fin 10000) (o : Fin 128), j = ix2 n o := ⟨j 0, j 1, eq_ix2 j⟩
  exact result_at x0 x1 x2 x3 n o

end Cert.ReferenceIdeal.RefValue

end
-- ==== Proof.lean ====
/-
  The proof of `Cert.Claim`: a graph-convolution layer `out = (a ∘ m + I) · (x · wᵀ)` over 10000 nodes and 128 channels,
  the kernel against its jnp reference, equal as extended reals under finite inputs.

  The kernel never forms `a ∘ m + I`. Its first grid point computes the projected features `h = x · wᵀ` once into two
  scratch buffers (f32, and narrowed to bf16), which every later point finds unchanged; each of the 50 points then
  aggregates its 200-row strip of the masked adjacency against `h` and adds the strip's own rows of `h`:
      out (n, o) = Σ_k (a (n, k) · m (n, k)) · h (k, o) + h (n, o).
  The reference adds the identity matrix first:
      out (n, o) = Σ_k (a (n, k) · m (n, k) + [n = k]) · h (k, o).
  Over the extended reals a change of float format is the identity and both matrix products are exact sums, so the two
  differ only by distributing `h (k, o)` over `a · m + [n = k]` and collapsing `Σ_k [n = k] · h (k, o)` to `h (n, o)`.
  Distributivity fails at the infinities, so this is where the precondition (every input entry finite) is used: it makes
  every entry, and hence every `h (k, o)`, a real number.

  The modules: GcnSpec (the layer in both arrangements, and the law between them), Finite (real entries from the
  precondition), CaseValues and Carried (what the body's two cases leave, and that the scratches hold `h` after every
  point), PayloadAt (the body's arithmetic at an index), LayerValue (the kernel's result array is the layer),
  ReferenceValue (the reference's result is the layer with the self-loop inside the sum).
-/
import proofs.«147589_g4569845203241_cont_8to1_c_799_21_alg».proof.Defs
import proofs.«147589_g4569845203241_cont_8to1_c_799_21_alg».proof.Proof.Gen.Kernel
import proofs.«147589_g4569845203241_cont_8to1_c_799_21_alg».proof.Proof.Gen.Kernel.Frame
import proofs.«147589_g4569845203241_cont_8to1_c_799_21_alg».proof.Proof.Gen.KernelIdeal
import proofs.«147589_g4569845203241_cont_8to1_c_799_21_alg».proof.Proof.Gen.KernelIdeal.Frame
import proofs.«147589_g4569845203241_cont_8to1_c_799_21_alg».proof.Proof.Gen.KernelIdeal.Value
import proofs.«147589_g4569845203241_cont_8to1_c_799_21_alg».proof.Proof.Gen.ReferenceIdeal
import proofs.«147589_g4569845203241_cont_8to1_c_799_21_alg».proof.Proof.Gen.ReferenceIdeal.Run
import proofs.«147589_g4569845203241_cont_8to1_c_799_21_alg».proof.Proof.Gen.ReferenceIdeal.Read
import proofs.«147589_g4569845203241_cont_8to1_c_799_21_alg».proof.Proof.Gen.Pre_finite_inputs
import proofs.«147589_g4569845203241_cont_8to1_c_799_21_alg».proof.Proof.GcnSpec
import proofs.«147589_g4569845203241_cont_8to1_c_799_21_alg».proof.Proof.Finite
import proofs.«147589_g4569845203241_cont_8to1_c_799_21_alg».proof.Proof.LayerValue
import proofs.«147589_g4569845203241_cont_8to1_c_799_21_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the layer of the (agreeing) arguments: the kernel's result array by the blocks its points write
    back, the reference's by its two products; the arrangements agree on real entries, which the precondition gives. -/
theorem algebraic : Cert.algebraic_KernelIdeal_ReferenceIdeal := by
  intro m ρ m' ρ' hpre hagree
  refine ⟨fun c => Cert.KernelIdeal.LayerValue.result m c, Cert.KernelIdeal.LayerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq,
    (hagree c).1, (hagree c).2.1, (hagree c).2.2.1, (hagree c).2.2.2]
  obtain ⟨hx, ha, hm, hw⟩ := Cert.Gcn.Finite.real_entries _ _ _ _ (hpre c)
  funext j
  show _ = Cert.Gcn.layerAt _ _ _ _ (j 0) (j 1)
  exact Cert.Gcn.layerLoopInsideAt_eq_layerAt _ _ _ _ hx ha hm hw (j 0) (j 1)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
